-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : IVec S16384 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S16384x2048 : Shape := ⟨2, ![16384, 2048]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S1x1 : Shape := ⟨2, ![1, 1]⟩
abbrev S512x2048 : Shape := ⟨2, ![512, 2048]⟩
abbrev S512x1 : Shape := ⟨2, ![512, 1]⟩
abbrev S512 : Shape := ⟨1, ![512]⟩

abbrev nBuf : Space → Nat
  | .hbm => 28
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .i32⟩
  | .hbm, ⟨26, _⟩ => ⟨S1x1, .f32⟩
  | .hbm, ⟨27, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S512x1, .i32⟩
  | .local _ .vmem, ⟨5, _⟩ => ⟨S512x1, .i32⟩
  | .local _ .vmem, ⟨6, _⟩ => ⟨S1x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  inb_S1x1_S1x1_0_0 : ∀ a, (![0, 0] : Fin 2 → Nat) a + S1x1.size a ≤ S1x1.size a
  h_S1x1 : 0 < S1x1.numel
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  iota_S512x2048_d1_w32 : S512x2048.Iotas .tc 32 [1]
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  gather_S16384x2048_S16384x1x1_S16384x1_n_1_0_0_1_2_11_wf : GatherDims.WF S16384x2048 S16384x1x1 S16384x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .i32 = 32 ∨ (Rect.block (s := S16384x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S16384x2048_S16384x1x1_S16384x1_n_1_0_0_1_2_11 : GatherDims S16384x2048 S16384x1x1 S16384x1 where
  offsetDims := []
  collapsedSliceDims := [1]
  operandBatchingDims := [0]
  startIndicesBatchingDims := [0]
  startIndexMap := [1]
  indexVectorDim := 2
  sliceSizes := ![1, 1]
  wf := gather_S16384x2048_S16384x1x1_S16384x1_n_1_0_0_1_2_11_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384 : Shape := ⟨1, ![16384]⟩
abbrev S16384x1 : Shape := ⟨2, ![16384, 1]⟩
abbrev S_ : Shape := ⟨0, ![]⟩
abbrev S16384x1x1 : Shape := ⟨3, ![16384, 1, 1]⟩
abbrev S1 : Shape := ⟨1, ![1]⟩
abbrev S1x1x1 : Shape := ⟨3, ![1, 1, 1]⟩
abbrev S2048 : Shape := ⟨1, ![2048]⟩
abbrev S1x2048 : Shape := ⟨2, ![1, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384, .i32⟩
  | .hbm, ⟨2, _⟩ => ⟨S16384x1, .i32⟩
  | .hbm, ⟨3, _⟩ => ⟨S_, .i32⟩
  | .hbm, ⟨4, _⟩ => ⟨S16384x1, .i32⟩
  | .hbm, ⟨5, _⟩ => ⟨S16384x1, .i1⟩
  | .hbm, ⟨6, _⟩ => ⟨S_, .i32⟩
  | .hbm, ⟨7, _⟩ => ⟨S16384x1, .i32⟩
  | .hbm, ⟨8, _⟩ => ⟨S16384x1, .i32⟩
  | .hbm, ⟨9, _⟩ => ⟨S16384x1, .i32⟩
  | .hbm, ⟨10, _⟩ => ⟨S16384x1x1, .i32⟩
  | .hbm, ⟨11, _⟩ => ⟨S1, .i32⟩
  | .hbm, ⟨12, _⟩ => ⟨S_, .i32⟩
  | .hbm, ⟨13, _⟩ => ⟨S16384x1x1, .i32⟩
  | .hbm, ⟨14, _⟩ => ⟨S16384x1x1, .i1⟩
  | .hbm, ⟨15, _⟩ => ⟨S1x1x1, .i32⟩
  | .hbm, ⟨16, _⟩ => ⟨S16384x1x1, .i32⟩
  | .hbm, ⟨17, _⟩ => ⟨S16384x1x1, .i1⟩
  | .hbm, ⟨18, _⟩ => ⟨S16384x1x1, .i1⟩
  | .hbm, ⟨19, _⟩ => ⟨S_, .i1⟩
  | .hbm, ⟨20, _⟩ => ⟨S16384x1, .i1⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S_, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S16384x2048, .f32⟩
  | .hbm, ⟨32, _⟩ => ⟨S16384x2048, .f32⟩
  | .hbm, ⟨33, _⟩ => ⟨S2048, .i32⟩
  | .hbm, ⟨34, _⟩ => ⟨S1x2048, .i32⟩
  | .hbm, ⟨35, _⟩ => ⟨S16384x1, .i32⟩
  | .hbm, ⟨36, _⟩ => ⟨S16384x2048, .i32⟩
  | .hbm, ⟨37, _⟩ => ⟨S16384x2048, .i32⟩
  | .hbm, ⟨38, _⟩ => ⟨S16384x2048, .i1⟩
  | .hbm, ⟨39, _⟩ => ⟨S_, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S_, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  h_S_ : 0 < S_.numel
  bcast_S16384x1_S16384x2048_0_1 : S16384x1.BroadcastsInDim S16384x2048 (![0, 1] : Fin 2 → Fin S16384x2048.rank)
  bcast_S_S16384x2048 : S_.BroadcastsInDim S16384x2048 (![] : Fin 0 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S_d0_1 : S16384x2048.ReducesTo [0, 1] S_
  gather_S16384x2048_S16384x1x1_S16384x1_n_1_0_0_1_2_11_wf : GatherDims.WF S16384x2048 S16384x1x1 S16384x1 [] [1] [0] [1] [0] 2 ![1, 1]

variable [Facts₀]

def gather_S16384x2048_S16384x1x1_S16384x1_n_1_0_0_1_2_11 : GatherDims S16384x2048 S16384x1x1 S16384x1 where
  offsetDims := []
  collapsedSliceDims := [1]
  operandBatchingDims := [0]
  startIndicesBatchingDims := [0]
  startIndexMap := [1]
  indexVectorDim := 2
  sliceSizes := ![1, 1]
  wf := gather_S16384x2048_S16384x1x1_S16384x1_n_1_0_0_1_2_11_wf

class Facts : Prop extends Facts₀ where

variable [Facts]
-- ==== Proof.BodyLeaves.lean ====
/-
  What one execution of the kernel body leaves in the one-entry running total.

  The body reads a block of 512 rows of logits, the 512 ground-truth logits of those rows and their 512 labels, forms
  the block's hinge total, and adds it to the running total. At the first grid point it first overwrites the running
  total with zero, so what it leaves there is "zero plus the block's total"; at every later point it leaves "what the
  point before left, plus the block's total". Both are the same pure function `k0_pay2` of the three blocks and of the
  total found: only the total found differs.
-/
import proofs.«106752_j55851754717414_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hinge

open Cert.KernelIdeal Cert.KernelIdeal.Gen

variable {F : FTy → Type} [FloatOps F]

/-- The two zero offsets every access of the body uses. -/
theorem zeroOffsets : (![0, 0] : Fin 2 → Nat) = fun _ => 0 := funext fun a => by fin_cases a <;> rfl

/-- At a later grid point the running total found is `acc`; the body's one store covers it with the block's total
    added to `acc`, the four loads reading whole buffers. -/
theorem later_point_leaves (c : Dev nD) (i : grid0.Coords) (arg1 : Memref sig .tc .vmem S512x2048 .f32) (harg1 : arg1.IsWhole)
    (arg2 : Memref sig .tc .vmem S512x1 .f32) (harg2 : arg2.IsWhole) (arg3 : Memref sig .tc .vmem S512x1 .i32) (harg3 : arg3.IsWhole)
    (arg4 : Memref sig .tc .vmem S1x1 .f32) (harg4 : arg4.IsWhole) (hc0 : ¬cond0_0 i)
    (x0 : Vec F S512x2048 .f32) (x1 : Vec F S512x1 .f32) (x2 : Vec F S512x1 .i32) (acc : Vec F S1x1 .f32) :
    out0_B_3 c i arg1 harg1 arg2 harg2 arg3 harg3 arg4 harg4 hc0 x0 x1 x2 acc = k0_pay2 x0 x1 x2 acc := by
  unfold out0_B_3
  rw [View.read_writes_eq_canon _ _ _ (cover0_B_3 c i arg1 harg1 arg2 harg2 arg3 harg3 arg4 harg4 hc0 x0 x1 x2 acc)]
  unfold kernelRun0_B
  dsimp only
  rw [View.canon_unit_zero (S := S1x1) zeroOffsets]
  simp only [View.readAt_eq_ld, harg1.read_unread, harg2.read_unread, harg3.read_unread, harg4.read_unread,
    View.ld_unit_zero (S := S512x2048) zeroOffsets, View.ld_unit_zero (S := S512x1) zeroOffsets,
    View.ld_unit_zero (S := S1x1) zeroOffsets]

/-- At the first grid point the body stores the zero entry, reads it back, and covers it with the block's total added to
    that zero. -/
theorem first_point_leaves (c : Dev nD) (i : grid0.Coords) (arg1 : Memref sig .tc .vmem S512x2048 .f32) (harg1 : arg1.IsWhole)
    (arg2 : Memref sig .tc .vmem S512x1 .f32) (harg2 : arg2.IsWhole) (arg3 : Memref sig .tc .vmem S512x1 .i32) (harg3 : arg3.IsWhole)
    (arg4 : Memref sig .tc .vmem S1x1 .f32) (harg4 : arg4.IsWhole) (hc0 : cond0_0 i)
    (x0 : Vec F S512x2048 .f32) (x1 : Vec F S512x1 .f32) (x2 : Vec F S512x1 .i32) :
    out0_A_3 c i arg1 harg1 arg2 harg2 arg3 harg3 arg4 harg4 hc0 x0 x1 x2 = k0_pay2 x0 x1 x2 (k0_pay1 (F := F)) := by
  unfold out0_A_3
  rw [View.read_writes_eq_canon _ _ _ (cover0_A_3 c i arg1 harg1 arg2 harg2 arg3 harg3 arg4 harg4 hc0 x0 x1 x2)]
  unfold kernelRun0_A
  dsimp only
  sl_unfold_words
  rw [View.canon_cons_unit_zero (S := S1x1) zeroOffsets, View.readCov_unit_zero (S := S1x1) _ zeroOffsets]
  simp only [View.readAt_eq_ld, harg1.read_unread, harg2.read_unread, harg3.read_unread,
    View.ld_unit_zero (S := S512x2048) zeroOffsets, View.ld_unit_zero (S := S512x1) zeroOffsets]

end Cert.KernelIdeal.Hinge

end
-- ==== Proof.LibKeepdims.lean ====
/-
  Layout and reduction facts a row-wise kernel needs when its payload is read at one index, over the extended reals:
  the column forms of a "keep the reduced axis" computation — a vector of row values viewed as a one-column matrix,
  and a one-column matrix spread over every column —, a row's maximum as the fold of `max` over the row's entries, the
  two binary words that encode `-∞`, and the two pointwise operations (absolute value, rounding to even) at an index.
-/
import Idealize.ShloMosaic.Lib.ValueLayout
import Idealize.ShloMosaic.PureOps.Ideal.Laws

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section AtIdeal
variable {s : Shape} {φ : FTy}

/-- An absolute value at an index is the larger of the element and its negation … -/
theorem absf_apply (a : FVec Ideal s φ) (i : s.Idx) : absf a i = max (a i) (-(a i)) := rfl
/-- … and a rounding to even rounds the element. -/
theorem roundeven_apply (a : FVec Ideal s φ) (i : s.Idx) : roundeven a i = Ideal.liftRound Ideal.roundHalfEven (a i) := rfl

end AtIdeal

/-- At the extended reals a scalar constant is what its word denotes. -/
theorem scalar_ofBits (φ : FTy) (b : BitVec φ.bits) : Scalar.ofBits (F := Ideal) φ b = Ideal.ofBits φ b := rfl

/-- The f32 word `0xFF800000` is `-∞`. -/
theorem negInf_f32 : Ideal.ofBits .f32 0xFF800000#32 = (⊥ : EReal) := by simp [Ideal.ofBits, Ideal.ieee]
/-- The bf16 word `0xFF80` is `-∞`. -/
theorem negInf_bf16 : Ideal.ofBits .bf16 0xFF80#16 = (⊥ : EReal) := by simp [Ideal.ofBits, Ideal.ieee]

/-- A row's maximum: the `maximumf` reduction of an `[a, b]` array over its columns reads, at row `p`, the fold of
    `max` from the accumulator's value over the row's `b` entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (src ∘ h.lift (ix1 p)) = _
  congr 1
  funext k
  show src (h.lift (ix1 p) k) = src (ix2 p k)
  congr 1
  funext d; apply Fin.ext
  match d with
  | ⟨0, _⟩ => rfl
  | ⟨1, _⟩ => rfl

end Cert.LibKeepdims
-- ==== Proof.LibRowSum.lean ====
/-
  A lane sum read at one row, over the extended reals: summing an [a, b] array along its second coordinate gives, at
  row p, the sum over the b entries of that row — for any extents and any float format. The inserted index that the
  library's one-axis reduction law speaks of is, at literal rank two, the pair (p, k).
-/
import Idealize.ShloMosaic.Lib.ValueIdx
import Idealize.ShloMosaic.PureOps.Ideal.Laws

open scoped BigOperators

namespace Cert.LibRowSum

open Idealize.ShloMosaic Idealize.ShloMosaic.ValueIdx

/-- A row's sum: the `add` reduction of an `[a, b]` array over its columns reads, at row `p`, the sum of the row's
    `b` entries (the accumulator is the sum's neutral element, so it contributes nothing). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = _
  refine Finset.sum_congr rfl fun k _ => congrArg src ?_
  funext d; apply Fin.ext
  match d with
  | ⟨0, _⟩ => rfl
  | ⟨1, _⟩ => rfl

end Cert.LibRowSum
-- ==== Proof.LibColSum.lean ====
/-
  A sublane sum read at one column, over the extended reals: summing an [a, b] array along its FIRST coordinate gives,
  at column q, the sum over the a entries of that column — for any extents and any float format. The inserted index
  that the library's one-axis reduction law speaks of is, at literal rank two, the pair (k, q).
-/
import Idealize.ShloMosaic.Lib.ValueIdx
import Idealize.ShloMosaic.PureOps.Ideal.Laws

open scoped BigOperators

namespace Cert.LibColSum

open Idealize.ShloMosaic Idealize.ShloMosaic.ValueIdx

/-- A column's sum: the `add` reduction of an `[a, b]` array over its rows reads, at column `q`, the sum of the
    column's `a` entries (the accumulator is the sum's neutral element, so it contributes nothing). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  show ∑ k : Fin a, src (h.lift (ix1 q) k) = _
  refine Finset.sum_congr rfl fun k _ => congrArg src ?_
  funext d; apply Fin.ext
  match d with
  | ⟨0, _⟩ => rfl
  | ⟨1, _⟩ => rfl

end Cert.LibColSum
-- ==== Proof.LibBlockSum.lean ====
/-
  Sums cut into consecutive runs, and arrays read at natural-number coordinates.

  A sum over the first n·b naturals is the sum over n runs of b consecutive ones; over `Fin (n·b)` it is the sum over the
  runs of the sums over `Fin b`. This is the only law that joins a contraction over 4096 coordinates to the same
  contraction taken 1024 coordinates at a time: it uses that addition is associative and commutative, nothing else, so it
  holds in any commutative monoid — the extended reals among them, infinities included.

  A matrix read at a pair of naturals (each taken modulo its extent, so that the read is total) lets a block's entry be
  named by arithmetic on its position, with no proof that the position is in range carried inside a sum.
-/
import Idealize.ShloMosaic.Lib.ValueIdx

open scoped BigOperators

namespace Cert.LibBlockSum

open Idealize.ShloMosaic Idealize.ShloMosaic.ValueIdx

/-! ## A sum cut into runs -/

/-- The first `n · b` naturals are `n` runs of `b`: run `s` is `s·b, …, s·b + b − 1`. -/
theorem sum_range_runs {β : Type*} [AddCommMonoid β] (f : ℕ → β) (b : ℕ) : ∀ n : ℕ,
    ∑ k ∈ Finset.range (n * b), f k = ∑ s ∈ Finset.range n, ∑ d ∈ Finset.range b, f (s * b + d)
  | 0 => by simp
  | n + 1 => by
    rw [Nat.succ_mul, Finset.sum_range_add, sum_range_runs f b n, Finset.sum_range_succ]

/-- The same over `Fin (n · b)` and `Fin b`. -/
theorem sum_fin_runs {β : Type*} [AddCommMonoid β] (f : ℕ → β) (n b : ℕ) :
    ∑ k : Fin (n * b), f k.val = ∑ s ∈ Finset.range n, ∑ d : Fin b, f (s * b + d.val) := by
  rw [Fin.sum_univ_eq_sum_range (fun k => f k) (n * b), sum_range_runs f b n]
  refine Finset.sum_congr rfl fun s _ => ?_
  rw [← Fin.sum_univ_eq_sum_range (fun d => f (s * b + d)) b]

/-! ## A matrix read at natural coordinates -/

/-- The entry of an `[a, b]` array at row `r`, column `k`, the two taken modulo the extents. -/
def nat2 {α : Type} (a b : ℕ) (ha : 0 < a) (hb : 0 < b) (A : (⟨2, ![a, b]⟩ : Shape).Idx → α) (r k : ℕ) : α :=
  A (ix2 ⟨r % a, Nat.mod_lt _ ha⟩ ⟨k % b, Nat.mod_lt _ hb⟩)

/-- At coordinates in range it is the entry there. -/
theorem nat2_eq {α : Type} (a b : ℕ) (ha : 0 < a) (hb : 0 < b) (A : (⟨2, ![a, b]⟩ : Shape).Idx → α) (r k : ℕ)
    (i : (⟨2, ![a, b]⟩ : Shape).Idx) (h0 : (i 0).val = r) (h1 : (i 1).val = k) : nat2 a b ha hb A r k = A i := by
  unfold nat2
  refine congrArg A (funext fun d => Fin.ext ?_)
  match d with
  | ⟨0, _⟩ => show r % a = (i 0).val; rw [← h0]; exact Nat.mod_eq_of_lt (idx2_lt0 i)
  | ⟨1, _⟩ => show k % b = (i 1).val; rw [← h1]; exact Nat.mod_eq_of_lt (idx2_lt1 i)

end Cert.LibBlockSum
-- ==== Proof.HingeSpec.lean ====
/-
  The multiclass hinge total, as one function of three arrays over the extended reals.

  For a matrix X of 16384 rows of 2048 logits, a column G holding one ground-truth logit per row and a column L holding
  one label word per row, the entry at row i, column c contributes max (X i c − G i + 1) 0 when the column number c
  differs from the row's label word, and 0 when it equals it; the hinge total is the sum of all contributions.

  Two arrangements of that sum meet here. One program adds the 16384 · 2048 contributions in one sweep; the other
  walks 32 blocks of 512 consecutive rows, adds each block's rows, and accumulates the 32 block totals. Addition of
  extended reals is associative and commutative (infinities included), so the two agree: the rows, taken as the first
  32 · 512 naturals, are 32 runs of 512.
-/
import Idealize.ShloMosaic.PureOps.Ideal
import Idealize.ShloMosaic.PureOps.Ideal.Laws
import Idealize.ShloMosaic.Lib.ValueIdx
import proofs.«106752_j55851754717414_1_alg».proof.Proof.LibBlockSum

open scoped BigOperators

noncomputable section

namespace Cert.Hinge

open Idealize.ShloMosaic Idealize.ShloMosaic.ValueIdx Cert.LibBlockSum

/-- One entry's contribution: `x` the entry's logit, `g` its row's ground-truth logit, `l` its row's label word, `c` its
    column number. The words are the f32 one and the f32 zero. -/
def margin (x g : EReal) (l : BitVec 32) (c : ℕ) : EReal :=
  Scalar.select (IntOp.cmpi .ne (BitVec.ofNat 32 c) l)
    (max (x - g + Ideal.ofBits .f32 0x3F800000#32) (Ideal.ofBits .f32 0x00000000#32)) (Ideal.ofBits .f32 0x00000000#32)

/-- The total of row number `r` (a natural number, read modulo the 16384 rows so that it is total). -/
def rowTotal (X : (⟨2, ![16384, 2048]⟩ : Shape).Idx → EReal) (G : (⟨2, ![16384, 1]⟩ : Shape).Idx → EReal)
    (L : (⟨2, ![16384, 1]⟩ : Shape).Idx → BitVec 32) (r : ℕ) : EReal :=
  ∑ c : Fin 2048, margin (nat2 16384 2048 (by decide) (by decide) X r c.val) (nat2 16384 1 (by decide) (by decide) G r 0)
    (nat2 16384 1 (by decide) (by decide) L r 0) c.val

/-- The hinge total: every row's total. -/
def hinge (X : (⟨2, ![16384, 2048]⟩ : Shape).Idx → EReal) (G : (⟨2, ![16384, 1]⟩ : Shape).Idx → EReal)
    (L : (⟨2, ![16384, 1]⟩ : Shape).Idx → BitVec 32) : EReal :=
  ∑ i : Fin 16384, rowTotal X G L i.val

/-- The same total taken block by block: 32 runs of 512 consecutive rows. -/
theorem hinge_eq_runs (X : (⟨2, ![16384, 2048]⟩ : Shape).Idx → EReal) (G : (⟨2, ![16384, 1]⟩ : Shape).Idx → EReal)
    (L : (⟨2, ![16384, 1]⟩ : Shape).Idx → BitVec 32) :
    hinge X G L = ∑ s ∈ Finset.range 32, ∑ d : Fin 512, rowTotal X G L (s * 512 + d.val) :=
  sum_fin_runs (rowTotal X G L) 32 512

/-- A row's total at a row number in range: the sum over the row's entries, each read at its own index. -/
theorem rowTotal_eq (X : (⟨2, ![16384, 2048]⟩ : Shape).Idx → EReal) (G : (⟨2, ![16384, 1]⟩ : Shape).Idx → EReal)
    (L : (⟨2, ![16384, 1]⟩ : Shape).Idx → BitVec 32) (i : Fin 16384) :
    rowTotal X G L i.val = ∑ c : Fin 2048, margin (X (ix2 i c)) (G (ix2 i (0 : Fin 1))) (L (ix2 i (0 : Fin 1))) c.val := by
  unfold rowTotal
  refine Finset.sum_congr rfl fun c _ => ?_
  rw [nat2_eq 16384 2048 _ _ X i.val c.val (ix2 i c) rfl rfl, nat2_eq 16384 1 _ _ G i.val 0 (ix2 i (0 : Fin 1)) rfl rfl,
    nat2_eq 16384 1 _ _ L i.val 0 (ix2 i (0 : Fin 1)) rfl rfl]

/-- A block's total: 512 rows of 2048 entries, each entry with its own row's ground-truth logit and label word. -/
def blockTotal (x : (⟨2, ![512, 2048]⟩ : Shape).Idx → EReal) (g : (⟨2, ![512, 1]⟩ : Shape).Idx → EReal)
    (l : (⟨2, ![512, 1]⟩ : Shape).Idx → BitVec 32) : EReal :=
  ∑ r : Fin 512, ∑ c : Fin 2048, margin (x (ix2 r c)) (g (ix2 r (0 : Fin 1))) (l (ix2 r (0 : Fin 1))) c.val

end Cert.Hinge

end
-- ==== Proof.BlockTotal.lean ====
/-
  The body's arithmetic at its one output entry, over the extended reals.

  From a block of 512 rows of 2048 logits, the block's column of ground-truth logits and its column of label words, the
  body forms the masked margins entry by entry — the row's ground-truth logit and label word spread over the row's 2048
  columns, the column number compared with the label word —, sums each row over its columns, sums the 512 row sums, and
  adds the result to the running total it found. Read at the one entry of the running total this is the total found
  plus the block's hinge total.
-/
import proofs.«106752_j55851754717414_1_alg».proof.Proof.Gen.KernelIdeal.Skeleton
import Idealize.ShloMosaic.Lib.Pipeline.Value
import Idealize.ShloMosaic.Lib.ValueIdx
import Idealize.ShloMosaic.PureOps.Ideal.Laws
import proofs.«106752_j55851754717414_1_alg».proof.Proof.LibKeepdims
import proofs.«106752_j55851754717414_1_alg».proof.Proof.LibRowSum
import proofs.«106752_j55851754717414_1_alg».proof.Proof.LibColSum
import proofs.«106752_j55851754717414_1_alg».proof.Proof.HingeSpec

open scoped BigOperators

noncomputable section

namespace Cert.KernelIdeal.Hinge

open Cert.KernelIdeal Cert.KernelIdeal.Gen Idealize.ShloMosaic Idealize.ShloMosaic.ValueIdx

/-- The block's masked margins, as the body computes them from the three blocks it loads. -/
def blockMargins (x0 : Vec Ideal S512x2048 .f32) (x1 : Vec Ideal S512x1 .f32) (x2 : Vec Ideal S512x1 .i32) : FVec Ideal S512x2048 .f32 :=
  select (cmpi .ne (iota .tc S512x2048 32 [1] iota_S512x2048_d1_w32)
      (broadcastTo S512x2048 (shapeCast S512x1 x2 shapeCasts_S512x1_S512x1) broadcasts_S512x1_S512x2048))
    (maximumf (addf (subf x0 (broadcastTo S512x2048 (shapeCast S512x1 x1 shapeCasts_S512x1_S512x1) broadcasts_S512x1_S512x2048))
      (broadcast S512x2048 (Scalar.ofBits (F := Ideal) .f32 0x3F800000#32))) (broadcast S512x2048 (Scalar.ofBits (F := Ideal) .f32 0x00000000#32)))
    (broadcast S512x2048 (Scalar.ofBits (F := Ideal) .f32 0x00000000#32))

/-- At row `r`, column `c` of the block they are the entry's contribution: the row's ground-truth logit and label word are
    read from the two one-column blocks at row `r`, the column number is `c`. -/
theorem blockMargins_apply (x0 : Vec Ideal S512x2048 .f32) (x1 : Vec Ideal S512x1 .f32) (x2 : Vec Ideal S512x1 .i32) (r : Fin 512) (c : Fin 2048) :
    blockMargins x0 x1 x2 (ix2 r c) = Cert.Hinge.margin (x0 (ix2 r c)) (x1 (ix2 r (0 : Fin 1))) (x2 (ix2 r (0 : Fin 1))) c.val := by
  have hg : broadcastTo S512x2048 (shapeCast S512x1 x1 shapeCasts_S512x1_S512x1) broadcasts_S512x1_S512x2048 (ix2 r c) = x1 (ix2 r (0 : Fin 1)) := by
    rw [shapeCast_self]; exact Cert.LibKeepdims.broadcastTo_a1_ab_apply x1 broadcasts_S512x1_S512x2048 r c
  have hl : broadcastTo S512x2048 (shapeCast S512x1 x2 shapeCasts_S512x1_S512x1) broadcasts_S512x1_S512x2048 (ix2 r c) = x2 (ix2 r (0 : Fin 1)) := by
    rw [shapeCast_self]; exact Cert.LibKeepdims.broadcastTo_a1_ab_apply x2 broadcasts_S512x1_S512x2048 r c
  have hi : iota .tc S512x2048 32 [1] iota_S512x2048_d1_w32 (ix2 r c) = BitVec.ofNat 32 c.val :=
    iota_single_apply .tc S512x2048 32 1 iota_S512x2048_d1_w32 (ix2 r c)
  show Scalar.select (IntOp.cmpi .ne (iota .tc S512x2048 32 [1] iota_S512x2048_d1_w32 (ix2 r c))
      (broadcastTo S512x2048 (shapeCast S512x1 x2 shapeCasts_S512x1_S512x1) broadcasts_S512x1_S512x2048 (ix2 r c)))
    (max (x0 (ix2 r c) - broadcastTo S512x2048 (shapeCast S512x1 x1 shapeCasts_S512x1_S512x1) broadcasts_S512x1_S512x2048 (ix2 r c)
      + Ideal.ofBits .f32 0x3F800000#32) (Ideal.ofBits .f32 0x00000000#32)) (Ideal.ofBits .f32 0x00000000#32) = _
  rw [hg, hl, hi]
  rfl

/-- The body's stored value at its one entry: the running total found plus the block's hinge total. -/
theorem payload_apply (x0 : Vec Ideal S512x2048 .f32) (x1 : Vec Ideal S512x1 .f32) (x2 : Vec Ideal S512x1 .i32) (acc : Vec Ideal S1x1 .f32) :
    k0_pay2 (F := Ideal) x0 x1 x2 acc (ix2 (0 : Fin 1) (0 : Fin 1)) = acc (ix2 (0 : Fin 1) (0 : Fin 1)) + Cert.Hinge.blockTotal x0 x1 x2 := by
  have e : k0_pay2 (F := Ideal) x0 x1 x2 acc = addf (shapeCast S1x1 acc shapeCasts_S1x1_S1x1)
      (shapeCast S1x1 (multiReduction (F := Ideal) .add [0] S1
        (shapeCast S512x1 (multiReduction (F := Ideal) .add [1] S512 (blockMargins x0 x1 x2) 0x00000000#32 reduces_S512x2048_S512 (.inl rfl) rfl) shapeCasts_S512_S512x1)
        0x00000000#32 reduces_S512x1_S1 (.inl rfl) rfl) shapeCasts_S1_S1x1) := rfl
  rw [e, shapeCast_self]
  refine congrArg (acc (ix2 (0 : Fin 1) (0 : Fin 1)) + ·) ?_
  refine (Cert.LibKeepdims.shapeCast_a_a1_apply _ shapeCasts_S1_S1x1 (0 : Fin 1) (0 : Fin 1)).trans ?_
  refine (Cert.LibColSum.colSum_apply _ 0x00000000#32 reduces_S512x1_S1 (.inl rfl) rfl (0 : Fin 1)).trans ?_
  unfold Cert.Hinge.blockTotal
  refine Finset.sum_congr rfl fun r _ => ?_
  refine (Cert.LibKeepdims.shapeCast_a_a1_apply _ shapeCasts_S512_S512x1 r (0 : Fin 1)).trans ?_
  refine (Cert.LibRowSum.rowSum_apply _ 0x00000000#32 reduces_S512x2048_S512 (.inl rfl) rfl r).trans ?_
  exact Finset.sum_congr rfl fun c _ => blockMargins_apply x0 x1 x2 r c

end Cert.KernelIdeal.Hinge

end
-- ==== Proof.RefRun.lean ====
/-
  The reference's run, read back: its @main is a straight line of 43 host operations (the row gather and the masked
  select are outlined functions, inlined where they are called), so every weakly fair execution ends with the result
  at the operations' composed term of the two arguments, the arguments unchanged.

  The composed term is cut into the stages the mathematics names: the labels as a column; the column each row picks
  (a negative label moved up by the row length 2048); each row's ground-truth logit (the picked entry, or the fill value
  when the picked column is outside 0..2047); the masked margins max(x − truth + 1, 0) off the label's column and 0 on
  it; and their total.
-/
import proofs.«106752_j55851754717414_1_alg».proof.Proof.Gen.ReferenceIdeal
import Idealize.ShloMosaic.Lib.StableHlo.Run

noncomputable section

namespace Cert.ReferenceIdeal.HingeRun

open Cert.ReferenceIdeal Cert.ReferenceIdeal.Gen Idealize.ShloMosaic Idealize.ShloMosaic.TcCoe Idealize.SL.Sem Idealize.ShloMosaic.StableHlo

variable {F : FTy → Type} [FloatOps F]

/-- @main's 43 operations, in order (a called function's operations stand in its call's place, spelt `TRef.…`). -/
abbrev ops : List (HloOp τ sig (Elt F)) :=
  [ unary main_arg1 main_v0 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S16384x1, .i32⟩) main_call0_v0) (broadcastInDim S16384x1 ![] bcast_S_S16384x1),
    TRef.binary (TRef.of (T := ⟨S16384x1, .i32⟩) main_v0) (TRef.of (T := ⟨S16384x1, .i32⟩) main_call0_v0) (TRef.of (T := ⟨S16384x1, .i1⟩) main_call0_v1) (cmpi .slt),
    TRef.nullary (TRef.of (T := ⟨S_, .i32⟩) main_call0_c_0) (constantI S_ 32 2048#32),
    TRef.unary (TRef.of (T := ⟨S_, .i32⟩) main_call0_c_0) (TRef.of (T := ⟨S16384x1, .i32⟩) main_call0_v2) (broadcastInDim S16384x1 ![] bcast_S_S16384x1),
    TRef.binary (TRef.of (T := ⟨S16384x1, .i32⟩) main_v0) (TRef.of (T := ⟨S16384x1, .i32⟩) main_call0_v2) (TRef.of (T := ⟨S16384x1, .i32⟩) main_call0_v3) addi,
    TRef.ternary (TRef.of (T := ⟨S16384x1, .i1⟩) main_call0_v1) (TRef.of (T := ⟨S16384x1, .i32⟩) main_call0_v3) (TRef.of (T := ⟨S16384x1, .i32⟩) main_v0) (TRef.of (T := ⟨S16384x1, .i32⟩) main_call0_v4) select,
    TRef.reshape (TRef.of (T := ⟨S16384x1, .i32⟩) main_call0_v4) (TRef.of (T := ⟨S16384x1x1, .i32⟩) main_call0_v5) rfl shapeCasts_S16384x1_S16384x1x1,
    TRef.nullary (TRef.of (T := ⟨S1, .i32⟩) main_call0_c_1) (constantI S1 32 2047#32),
    TRef.nullary (TRef.of (T := ⟨S_, .i32⟩) main_call0_c_2) (constantI S_ 32 0#32),
    TRef.unary (TRef.of (T := ⟨S_, .i32⟩) main_call0_c_2) (TRef.of (T := ⟨S16384x1x1, .i32⟩) main_call0_v6) (broadcastInDim S16384x1x1 ![] bcast_S_S16384x1x1),
    TRef.binary (TRef.of (T := ⟨S16384x1x1, .i32⟩) main_call0_v5) (TRef.of (T := ⟨S16384x1x1, .i32⟩) main_call0_v6) (TRef.of (T := ⟨S16384x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S16384x1x1, .i32⟩) main_call0_v9) (broadcastInDim S16384x1x1 ![0, 1, 2] bcast_S1x1x1_S16384x1x1_0_1_2),
    TRef.binary (TRef.of (T := ⟨S16384x1x1, .i32⟩) main_call0_v5) (TRef.of (T := ⟨S16384x1x1, .i32⟩) main_call0_v9) (TRef.of (T := ⟨S16384x1x1, .i1⟩) main_call0_v10) (cmpi .sle),
    TRef.binary (TRef.of (T := ⟨S16384x1x1, .i1⟩) main_call0_v7) (TRef.of (T := ⟨S16384x1x1, .i1⟩) main_call0_v10) (TRef.of (T := ⟨S16384x1x1, .i1⟩) main_call0_v11) andi,
    TRef.nullary (TRef.of (T := ⟨S_, .i1⟩) main_call0_c_3) (constantI S_ 1 1#1),
    TRef.binary (TRef.of (T := ⟨S16384x1x1, .i1⟩) main_call0_v11) (TRef.of (T := ⟨S_, .i1⟩) main_call0_c_3) (TRef.of (T := ⟨S16384x1, .i1⟩) main_call0_v12) (fun x v => Host.reduce IntOp.andi x v reducesTo_S16384x1x1_S16384x1_d2 h_S_),
    TRef.binary (TRef.of (T := ⟨S16384x2048, .f32⟩) main_arg0) (TRef.of (T := ⟨S16384x1x1, .i32⟩) main_call0_v5) (TRef.of (T := ⟨S16384x1, .f32⟩) main_call0_v13) (fun x i => Host.gather gather_S16384x2048_S16384x1x1_S16384x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S16384x1, .f32⟩) main_call0_v14) (broadcastInDim S16384x1 ![] bcast_S_S16384x1),
    TRef.ternary (TRef.of (T := ⟨S16384x1, .i1⟩) main_call0_v12) (TRef.of (T := ⟨S16384x1, .f32⟩) main_call0_v13) (TRef.of (T := ⟨S16384x1, .f32⟩) main_call0_v14) (TRef.of (T := ⟨S16384x1, .f32⟩) main_v1) select,
    unary main_v1 main_v2 (broadcastInDim S16384x2048 ![0, 1] bcast_S16384x1_S16384x2048_0_1 : (⟨S16384x1, .f32⟩ : BufTy).Contents (Elt F) → (⟨S16384x2048, .f32⟩ : BufTy).Contents (Elt F)),
    binary main_arg0 main_v2 main_v3 (subf : (⟨S16384x2048, .f32⟩ : BufTy).Contents (Elt F) → (⟨S16384x2048, .f32⟩ : BufTy).Contents (Elt F) → (⟨S16384x2048, .f32⟩ : BufTy).Contents (Elt F)),
    nullary main_cst (constant S_ .f32 0x3F800000#32),
    unary main_cst main_v4 (broadcastInDim S16384x2048 ![] bcast_S_S16384x2048 : (⟨S_, .f32⟩ : BufTy).Contents (Elt F) → (⟨S16384x2048, .f32⟩ : BufTy).Contents (Elt F)),
    binary main_v3 main_v4 main_v5 (addf : (⟨S16384x2048, .f32⟩ : BufTy).Contents (Elt F) → (⟨S16384x2048, .f32⟩ : BufTy).Contents (Elt F) → (⟨S16384x2048, .f32⟩ : BufTy).Contents (Elt F)),
    nullary main_cst_0 (constant S_ .f32 0x00000000#32),
    unary main_cst_0 main_v6 (broadcastInDim S16384x2048 ![] bcast_S_S16384x2048 : (⟨S_, .f32⟩ : BufTy).Contents (Elt F) → (⟨S16384x2048, .f32⟩ : BufTy).Contents (Elt F)),
    binary main_v5 main_v6 main_v7 (maximumf : (⟨S16384x2048, .f32⟩ : BufTy).Contents (Elt F) → (⟨S16384x2048, .f32⟩ : BufTy).Contents (Elt F) → (⟨S16384x2048, .f32⟩ : BufTy).Contents (Elt F)),
    nullary main_v8 (iotaInDim S2048 32 0),
    unary main_v8 main_v9 (broadcastInDim S1x2048 ![1] bcast_S2048_S1x2048_1 : (⟨S2048, .i32⟩ : BufTy).Contents (Elt F) → (⟨S1x2048, .i32⟩ : BufTy).Contents (Elt F)),
    unary main_arg1 main_v10 (broadcastInDim S16384x1 ![0] bcast_S16384_S16384x1_0 : (⟨S16384, .i32⟩ : BufTy).Contents (Elt F) → (⟨S16384x1, .i32⟩ : BufTy).Contents (Elt F)),
    unary main_v9 main_v11 (broadcastInDim S16384x2048 ![0, 1] bcast_S1x2048_S16384x2048_0_1 : (⟨S1x2048, .i32⟩ : BufTy).Contents (Elt F) → (⟨S16384x2048, .i32⟩ : BufTy).Contents (Elt F)),
    unary main_v10 main_v12 (broadcastInDim S16384x2048 ![0, 1] bcast_S16384x1_S16384x2048_0_1 : (⟨S16384x1, .i32⟩ : BufTy).Contents (Elt F) → (⟨S16384x2048, .i32⟩ : BufTy).Contents (Elt F)),
    binary main_v11 main_v12 main_v13 (cmpi .ne : (⟨S16384x2048, .i32⟩ : BufTy).Contents (Elt F) → (⟨S16384x2048, .i32⟩ : BufTy).Contents (Elt F) → (⟨S16384x2048, .i1⟩ : BufTy).Contents (Elt F)),
    nullary main_cst_1 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S16384x2048, .f32⟩) main_call1_v1) (broadcastInDim S16384x2048 ![] bcast_S_S16384x2048),
    TRef.ternary (TRef.of (T := ⟨S16384x2048, .i1⟩) main_v13) (TRef.of (T := ⟨S16384x2048, .f32⟩) main_v7) (TRef.of (T := ⟨S16384x2048, .f32⟩) main_call1_v1) (TRef.of (T := ⟨S16384x2048, .f32⟩) main_v14) select,
    nullary main_cst_2 (constant S_ .f32 0x00000000#32),
    binary main_v14 main_cst_2 main_v15 ((fun x v => Host.reduceAdd x v reducesTo_S16384x2048_S_d0_1 h_S_) : (⟨S16384x2048, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub ..⟩

/-! ## The stages of the composed term -/

/-- The labels as a one-column matrix. -/
def labelColumn (lab : (⟨S16384, .i32⟩ : BufTy).Contents (Elt F)) : (⟨S16384x1, .i32⟩ : BufTy).Contents (Elt F) :=
  broadcastInDim S16384x1 ![0] bcast_S16384_S16384x1_0 lab

/-- The column each row picks: its label, a negative one moved up by the row length. -/
def pickedColumn (lab : (⟨S16384, .i32⟩ : BufTy).Contents (Elt F)) : (⟨S16384x1x1, .i32⟩ : BufTy).Contents (Elt F) :=
  shapeCast _ (select (cmpi .slt (labelColumn (F := F) lab) (broadcastInDim S16384x1 ![] bcast_S_S16384x1 (constantI S_ 32 0#32))) (addi (labelColumn (F := F) lab) (broadcastInDim S16384x1 ![] bcast_S_S16384x1 (constantI S_ 32 2048#32))) (labelColumn (F := F) lab)) shapeCasts_S16384x1_S16384x1x1

/-- Each row's ground-truth logit: the entry of the row at the picked column when that column is one of 0..2047, the
    fill value otherwise. -/
def truthLogit (x : (⟨S16384x2048, .f32⟩ : BufTy).Contents (Elt F)) (lab : (⟨S16384, .i32⟩ : BufTy).Contents (Elt F)) : (⟨S16384x1, .f32⟩ : BufTy).Contents (Elt F) :=
  select (Host.reduce IntOp.andi (andi (cmpi .sge (pickedColumn (F := F) lab) (broadcastInDim S16384x1x1 ![] bcast_S_S16384x1x1 (constantI S_ 32 0#32))) (cmpi .sle (pickedColumn (F := F) lab) (broadcastInDim S16384x1x1 ![0, 1, 2] bcast_S1x1x1_S16384x1x1_0_1_2 (broadcastInDim S1x1x1 ![2] bcast_S1_S1x1x1_2 (constantI S1 32 2047#32))))) (constantI S_ 1 1#1) reducesTo_S16384x1x1_S16384x1_d2 h_S_) (Host.gather gather_S16384x2048_S16384x1x1_S16384x1_n_1_0_0_1_2_11 x (pickedColumn (F := F) lab)) (broadcastInDim S16384x1 ![] bcast_S_S16384x1 (constant S_ .f32 0x7FC00000#32))

/-- The masked margins: off the label's column `max (x − truth + 1) 0`, on it `0`. -/
def margins (x : (⟨S16384x2048, .f32⟩ : BufTy).Contents (Elt F)) (lab : (⟨S16384, .i32⟩ : BufTy).Contents (Elt F)) : (⟨S16384x2048, .f32⟩ : BufTy).Contents (Elt F) :=
  select (cmpi .ne (broadcastInDim S16384x2048 ![0, 1] bcast_S1x2048_S16384x2048_0_1 (broadcastInDim S1x2048 ![1] bcast_S2048_S1x2048_1 (iotaInDim S2048 32 0))) (broadcastInDim S16384x2048 ![0, 1] bcast_S16384x1_S16384x2048_0_1 (labelColumn (F := F) lab))) (maximumf (addf (subf x (broadcastInDim S16384x2048 ![0, 1] bcast_S16384x1_S16384x2048_0_1 (truthLogit x lab))) (broadcastInDim S16384x2048 ![] bcast_S_S16384x2048 (constant S_ .f32 0x3F800000#32))) (broadcastInDim S16384x2048 ![] bcast_S_S16384x2048 (constant S_ .f32 0x00000000#32))) (broadcastInDim S16384x2048 ![] bcast_S_S16384x2048 (id (constant S_ .f32 0x00000000#32)))

/-- Their total: the host's sum over both axes, from zero. -/
def total (x : (⟨S16384x2048, .f32⟩ : BufTy).Contents (Elt F)) (lab : (⟨S16384, .i32⟩ : BufTy).Contents (Elt F)) : (⟨S_, .f32⟩ : BufTy).Contents (Elt F) :=
  Host.reduceAdd (margins x lab) (constant S_ .f32 0x00000000#32) reducesTo_S16384x2048_S_d0_1 h_S_

/-! ## The run -/

set_option maxRecDepth 100000 in
set_option maxHeartbeats 2000000 in
/-- On every device, for any float values, from any memory with zero counters: every weakly fair execution of @main
    terminates with the result at the total of the masked margins of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = total (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v15).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HingeRun

end
-- ==== Proof.KernelTotal.lean ====
/-
  The kernel's result is the hinge total of the arrays the region finds, over the extended reals.

  The region finds the logits as launched, the rows' ground-truth logits as the host's row gather left them, and the
  labels as a column. Grid point t stages rows 512·t … 512·t + 511 of each, so the block's total there is the sum of
  those 512 row totals. The one-entry running total starts from zero at point 0 and grows by one block's total per
  point: after point n it is the sum of the first n + 1 blocks' totals (induction on the point). It is written back once,
  after point 31, when it is the sum of all 32 blocks' totals — every row's total, each counted once. The host's last
  line reshapes that one entry to a scalar.
-/
import proofs.«106752_j55851754717414_1_alg».proof.Proof.BodyLeaves
import proofs.«106752_j55851754717414_1_alg».proof.Proof.BlockTotal
import proofs.«106752_j55851754717414_1_alg».proof.Proof.RefRun
import Idealize.ShloMosaic.Lib.StableHlo.Run

open scoped BigOperators

noncomputable section

namespace Cert.KernelIdeal.Hinge

open Cert.KernelIdeal Cert.KernelIdeal.Gen Idealize.ShloMosaic Idealize.ShloMosaic.TcCoe Idealize.ShloMosaic.ValueIdx
open Idealize.SL.Sem Cert.LibBlockSum
open Idealize.ShloMosaic.Pipeline (Dat)

variable (m : (ℓ : Loc nD τ sig) → Buf (Elt Ideal) ℓ) (ρ : Dev nD → PrngReg)

/-! ## The arrays the region finds -/

/-- The logits, -/
def foundLogits (c : Dev nD) : (⟨2, ![16384, 2048]⟩ : Shape).Idx → EReal := V m c main_arg0
/-- the rows' ground-truth logits, -/
def foundTruth (c : Dev nD) : (⟨2, ![16384, 1]⟩ : Shape).Idx → EReal := V m c main_v1
/-- and the labels as a column, as the region finds them. -/
def foundLabels (c : Dev nD) : (⟨2, ![16384, 1]⟩ : Shape).Idx → BitVec 32 := V m c main_v2

/-- The logits are the first argument as launched. -/
theorem foundLogits_eq (c : Dev nD) : foundLogits m c = m ((c : Thread nD τ).loc main_arg0) := V_main_arg0 m c

set_option maxRecDepth 100000 in
set_option maxHeartbeats 2000000 in
/-- The ground-truth column is the row gather of the two arguments: the same stage the reference computes. -/
theorem foundTruth_eq (c : Dev nD) : foundTruth m c
    = Cert.ReferenceIdeal.HingeRun.truthLogit (F := Ideal) (m ((c : Thread nD τ).loc main_arg0)) (m ((c : Thread nD τ).loc main_arg1)) := by
  unfold foundTruth
  dsimp only [V, V0]
  simp only [hostOps0, hostOps0_1, hostOps0_2, List.flatten_cons, List.flatten_nil, List.append_nil, List.cons_append, List.nil_append]
  after_results_simp <;> rfl

set_option maxRecDepth 100000 in
/-- The label column is the second argument made a column. -/
theorem foundLabels_eq (c : Dev nD) : foundLabels m c
    = Cert.ReferenceIdeal.HingeRun.labelColumn (F := Ideal) (m ((c : Thread nD τ).loc main_arg1)) := by
  unfold foundLabels
  dsimp only [V, V0]
  simp only [hostOps0, hostOps0_1, hostOps0_2, List.flatten_cons, List.flatten_nil, List.append_nil, List.cons_append, List.nil_append]
  after_results
  rfl

/-! ## A block is 512 consecutive rows -/

/-- At grid point `t` every input window is on block row `t`, block column 0 — decided over the 32 points. -/
theorem block_position : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The logits block at point `t`, row `r`, column `k`, is the logits at row `512·t + r`, column `k`. -/
theorem logits_block_apply (c : Dev nD) (t : Fin cfg0.N) (r : Fin 512) (k : Fin 2048) :
    (iblk m c 0 t : Vec Ideal S512x2048 .f32) (ix2 r k)
      = nat2 16384 2048 (by decide) (by decide) (foundLogits m c) (t.val * 512 + r.val) k.val := by
  unfold iblk
  rw [View.read_apply]
  refine (nat2_eq 16384 2048 _ _ (foundLogits m c) _ _ (((cfg0.win 0).blk t).view.emb (ix2 r k)) ?_ ?_).symm
  · show win0_0.index t 0 * 512 + 1 * r.val = t.val * 512 + r.val
    rw [(block_position t).1]; omega
  · show win0_0.index t 1 * 2048 + 1 * k.val = k.val
    rw [(block_position t).2.1]; omega

/-- The ground-truth block at point `t`, row `r`, is the ground-truth logit of row `512·t + r`. -/
theorem truth_block_apply (c : Dev nD) (t : Fin cfg0.N) (r : Fin 512) :
    (iblk m c 1 t : Vec Ideal S512x1 .f32) (ix2 r (0 : Fin 1))
      = nat2 16384 1 (by decide) (by decide) (foundTruth m c) (t.val * 512 + r.val) 0 := by
  unfold iblk
  rw [View.read_apply]
  refine (nat2_eq 16384 1 _ _ (foundTruth m c) _ _ (((cfg0.win 1).blk t).view.emb (ix2 r (0 : Fin 1))) ?_ ?_).symm
  · show win0_1.index t 0 * 512 + 1 * r.val = t.val * 512 + r.val
    rw [(block_position t).2.2.1]; omega
  · show win0_1.index t 1 * 1 + 1 * 0 = 0
    rw [(block_position t).2.2.2.1]

/-- The label block at point `t`, row `r`, is the label word of row `512·t + r`. -/
theorem labels_block_apply (c : Dev nD) (t : Fin cfg0.N) (r : Fin 512) :
    (iblk m c 2 t : Vec Ideal S512x1 .i32) (ix2 r (0 : Fin 1))
      = nat2 16384 1 (by decide) (by decide) (foundLabels m c) (t.val * 512 + r.val) 0 := by
  unfold iblk
  rw [View.read_apply]
  refine (nat2_eq 16384 1 _ _ (foundLabels m c) _ _ (((cfg0.win 2).blk t).view.emb (ix2 r (0 : Fin 1))) ?_ ?_).symm
  · show win0_2.index t 0 * 512 + 1 * r.val = t.val * 512 + r.val
    rw [(block_position t).2.2.2.2.1]; omega
  · show win0_2.index t 1 * 1 + 1 * 0 = 0
    rw [(block_position t).2.2.2.2.2]

/-- So the block's total at point `t` is the sum of the totals of rows `512·t … 512·t + 511`. -/
theorem block_total_eq (c : Dev nD) (t : Fin cfg0.N) :
    Cert.Hinge.blockTotal (iblk m c 0 t) (iblk m c 1 t) (iblk m c 2 t)
      = ∑ d : Fin 512, Cert.Hinge.rowTotal (foundLogits m c) (foundTruth m c) (foundLabels m c) (t.val * 512 + d.val) := by
  unfold Cert.Hinge.blockTotal Cert.Hinge.rowTotal
  refine Finset.sum_congr rfl fun r _ => Finset.sum_congr rfl fun k _ => ?_
  rw [logits_block_apply m c t r k, truth_block_apply m c t r, labels_block_apply m c t r]

/-! ## The running total -/

/-- A one-by-one array has one index. -/
theorem only_entry (z : S1x1.Idx) : z = ix2 (0 : Fin 1) (0 : Fin 1) := by
  refine (eq_ix2 z).trans ?_
  have h0 : z 0 = (0 : Fin 1) := Fin.ext (Nat.lt_one_iff.mp (idx2_lt0 z))
  have h1 : z 1 = (0 : Fin 1) := Fin.ext (Nat.lt_one_iff.mp (idx2_lt1 z))
  rw [h0, h1]
  rfl

/-- After grid point `n` the running total is the sum of the first `n + 1` blocks' totals. -/
theorem running_total (c : Dev nD) : ∀ (n : ℕ) (h : n < cfg0.N),
    outsAt0 m c n h (ix2 (0 : Fin 1) (0 : Fin 1))
      = ∑ s ∈ Finset.range (n + 1), ∑ d : Fin 512, Cert.Hinge.rowTotal (foundLogits m c) (foundTruth m c) (foundLabels m c) (s * 512 + d.val)
  | 0, h => by
    rw [outsAt0_A m c ⟨0, h⟩ rfl, first_point_leaves, payload_apply, block_total_eq m c ⟨0, h⟩]
    show Ideal.ofBits .f32 0x00000000#32 + _ = _
    rw [Ideal.ofBits_zero_f32, zero_add, Finset.sum_range_one]
  | n + 1, h => by
    have hN : cfg0.N = 32 := N_0
    have hB : ¬(⟨n + 1, h⟩ : Fin cfg0.N).val % 32 = 0 := by dsimp only; omega
    rw [outsAt0_B m c ⟨n + 1, h⟩ hB, later_point_leaves, payload_apply, block_total_eq m c ⟨n + 1, h⟩]
    show outsAt0 m c n _ (ix2 (0 : Fin 1) (0 : Fin 1)) + _ = _
    rw [running_total c n, Finset.sum_range_succ _ (n + 1)]

/-! ## The result array and the result -/

/-- The hinge total of the arrays the region finds, as the one-by-one result array. -/
def resultArray (c : Dev nD) : Vec Ideal S1x1 .f32 :=
  fun _ => Cert.Hinge.hinge (foundLogits m c) (foundTruth m c) (foundLabels m c)

/-- The result window's block is block (0, 0) at every grid point — decided over the 32 points. -/
theorem result_block_position : ∀ t : Fin cfg0.N, win0_3.index t (0 : Fin 2) = 0 ∧ win0_3.index t (1 : Fin 2) = 0 :=
  (by decide +kernel : ∀ t : Fin grid0.N, _)

/-- The one write-back, after the last point, writes it: by then the running total is all 32 blocks' totals, and the
    block written — block (0, 0), of the array's own size — is the whole one-by-one array. -/
theorem flushed_total (c : Dev nD) (t : Fin cfg0.N) (hf : (cfg0.win 3).flush t = true) :
    (dats m 0 c).flushed 3 t = ((cfg0.win 3).blk t).view.read (Elt Ideal) (resultArray m c) := by
  have hN : cfg0.N = 32 := N_0
  have h31 : t.val = 31 := by have := (flush0_3 t).mp hf; have := t.isLt; omega
  show (cfg0.win 3).cut (grid0.coords t) ((dats m 0 c).after 3 t) = _
  rw [after0_3]
  have hz' : (fun a => win0_3.index t a * main_v3.ty.shape.size a) = fun _ => 0 := funext fun a => by
    fin_cases a
    · show win0_3.index t 0 * 1 = 0
      rw [(result_block_position t).1]
    · show win0_3.index t 1 * 1 = 0
      rw [(result_block_position t).2]
  refine Eq.trans ?_ (Memref.read_access_unit_zero (Elt Ideal) main_v3 hz' (fun a => by rw [congrFun hz' a]; simp) (resultArray m c)).symm
  funext y
  refine (congrArg (outsAt0 m c t.val t.isLt) (only_entry ((cfg0.win 3).xinj (grid0.coords t) y))).trans ?_
  rw [running_total m c t.val t.isLt, h31]
  exact (Cert.Hinge.hinge_eq_runs (foundLogits m c) (foundTruth m c) (foundLabels m c)).symm

/-- The last grid point. -/
abbrev lastPoint : Fin cfg0.N := ⟨31, by rw [show cfg0.N = 32 from N_0]; decide⟩

/-- So the result array ends holding the hinge total: the last point's block is the whole one-by-one array. -/
theorem result_array (c : Dev nD) : (dats m 0 c).arrAt 3 cfg0.N = resultArray m c :=
  (dats m 0 c).arrAt_eq_of_cover 3 (resultArray m c) (flushed_total m c) fun i =>
    ⟨lastPoint, (flush0_3 lastPoint).mpr rfl, by
      show i ∈ ((View.whole main_v3).slice (win0_3.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index lastPoint 0 * win0_3.size 0 ≤ (i 0 : Nat) ∧ (i 0 : Nat) < win0_3.index lastPoint 0 * win0_3.size 0 + win0_3.xsize (grid0.coords lastPoint) 0
        rw [show win0_3.index lastPoint 0 * win0_3.size 0 = 0 from by decide +kernel, show win0_3.xsize (grid0.coords lastPoint) 0 = 1 from by decide +kernel]; omega
      | ⟨1, _⟩ =>
        show win0_3.index lastPoint 1 * win0_3.size 1 ≤ (i 1 : Nat) ∧ (i 1 : Nat) < win0_3.index lastPoint 1 * win0_3.size 1 + win0_3.xsize (grid0.coords lastPoint) 1
        rw [show win0_3.index lastPoint 1 * win0_3.size 1 = 0 from by decide +kernel, show win0_3.xsize (grid0.coords lastPoint) 1 = 1 from by decide +kernel]; omega⟩

/-- The host's last line reshapes the one entry to a scalar. -/
theorem tail_result (c : Dev nD) :
    Pipeline.afterTail₀ cfgs (dats m) 0 (V0 m) [hostOps1] c main_v4
      = fun _ => Cert.Hinge.hinge (foundLogits m c) (foundTruth m c) (foundLabels m c) := by
  unfold Pipeline.afterTail₀
  show StableHlo.after hostOps1 _ (Proc.devRef .tc main_v4) = _
  after_results
  rw [Pipeline.withArrays_arr spec0 launch0.win.arr_inj c _ _ 3, result_array]
  rfl

/-- The kernel's run, read: the result at the hinge total of the arrays found, the arguments unchanged. -/
theorem run : θ_run defs (onTc (τ := τ) (main (F := Ideal))) ⟨m, fun _ => 0, ρ⟩ fun r => ∀ c : Dev nD,
      r.2.mem ((c.tc : Thread nD τ).loc main_v4) = (fun _ => Cert.Hinge.hinge (foundLogits m c) (foundTruth m c) (foundLabels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Hinge

end
-- ==== Proof.RefTotal.lean ====
/-
  The reference's result is the hinge total of its arguments, over the extended reals.

  The host's sum over both axes, from the zero word, is zero plus the sum of every masked margin; the sum over the
  16384 · 2048 indices is the sum over rows of the sum over columns; and the masked margin at row a, column b is that
  entry's contribution: the column numbers are an iota spread over the rows, the label and the ground-truth logit of
  the row are one-column matrices spread over the columns, and the three constants are scalars spread over everything.
-/
import proofs.«106752_j55851754717414_1_alg».proof.Proof.RefRun
import proofs.«106752_j55851754717414_1_alg».proof.Proof.HingeSpec
import Idealize.ShloMosaic.Lib.Pipeline.Value
import Idealize.ShloMosaic.Lib.IdealHost
import Idealize.ShloMosaic.PureOps.Ideal.Laws

open scoped BigOperators

noncomputable section

namespace Cert.ReferenceIdeal.HingeRun

open Cert.ReferenceIdeal Cert.ReferenceIdeal.Gen Idealize.ShloMosaic Idealize.ShloMosaic.ValueIdx

/-- A one-column matrix spread over 2048 columns reads, at row `a`, column `b`, its row `a`. -/
theorem column_spread_apply {α : Type} (y : S16384x1.Idx → α) (a : Fin 16384) (b : Fin 2048) :
    broadcastInDim S16384x2048 ![0, 1] bcast_S16384x1_S16384x2048_0_1 y (ix2 a b) = y (ix2 a (0 : Fin 1)) :=
  broadcastInDim_apply _ bcast_S16384x1_S16384x2048_0_1 y (ix2 a b) (ix2 a (0 : Fin 1)) (fun d => match d with
    | ⟨0, _⟩ => by show a.val = if (16384 : Nat) = 1 then 0 else a.val; rw [if_neg (by decide)]
    | ⟨1, _⟩ => by show 0 = if (1 : Nat) = 1 then 0 else b.val; rw [if_pos rfl])

/-- The column numbers — an iota over 2048 columns, made a row, spread over the rows — read, at column `b`, the word `b`. -/
theorem column_numbers_apply (a : Fin 16384) (b : Fin 2048) :
    broadcastInDim S16384x2048 ![0, 1] bcast_S1x2048_S16384x2048_0_1
      (broadcastInDim S1x2048 ![1] bcast_S2048_S1x2048_1 (iotaInDim S2048 32 0)) (ix2 a b) = BitVec.ofNat 32 b.val := by
  rw [broadcastInDim_apply _ bcast_S1x2048_S16384x2048_0_1 _ (ix2 a b) (ix2 (0 : Fin 1) b) (fun d => match d with
      | ⟨0, _⟩ => by show 0 = if (1 : Nat) = 1 then 0 else a.val; rw [if_pos rfl]
      | ⟨1, _⟩ => by show b.val = if (2048 : Nat) = 1 then 0 else b.val; rw [if_neg (by decide)]),
    broadcastInDim_apply _ bcast_S2048_S1x2048_1 _ (ix2 (0 : Fin 1) b) (ix1 b) (fun d => match d with
      | ⟨0, _⟩ => by show b.val = if (2048 : Nat) = 1 then 0 else b.val; rw [if_neg (by decide)])]
  rfl

/-- The masked margins at row `a`, column `b`: that entry's contribution, with the row's ground-truth logit and label. -/
theorem margins_apply (x : S16384x2048.Idx → Ideal .f32) (lab : S16384.Idx → BitVec 32) (a : Fin 16384) (b : Fin 2048) :
    margins (F := Ideal) x lab (ix2 a b)
      = Cert.Hinge.margin (x (ix2 a b)) (truthLogit (F := Ideal) x lab (ix2 a (0 : Fin 1))) (labelColumn (F := Ideal) lab (ix2 a (0 : Fin 1))) b.val := by
  unfold margins
  show Scalar.select (IntOp.cmpi .ne
      (broadcastInDim S16384x2048 ![0, 1] bcast_S1x2048_S16384x2048_0_1 (broadcastInDim S1x2048 ![1] bcast_S2048_S1x2048_1 (iotaInDim S2048 32 0)) (ix2 a b))
      (broadcastInDim S16384x2048 ![0, 1] bcast_S16384x1_S16384x2048_0_1 (labelColumn (F := Ideal) lab) (ix2 a b)))
    (max (x (ix2 a b) - broadcastInDim S16384x2048 ![0, 1] bcast_S16384x1_S16384x2048_0_1 (truthLogit (F := Ideal) x lab) (ix2 a b)
        + broadcastInDim S16384x2048 ![] bcast_S_S16384x2048 (constant (F := Ideal) S_ .f32 0x3F800000#32) (ix2 a b))
      (broadcastInDim S16384x2048 ![] bcast_S_S16384x2048 (constant (F := Ideal) S_ .f32 0x00000000#32) (ix2 a b)))
    (broadcastInDim S16384x2048 ![] bcast_S_S16384x2048 (id (constant (F := Ideal) S_ .f32 0x00000000#32)) (ix2 a b)) = _
  rw [column_numbers_apply, column_spread_apply, column_spread_apply, broadcastInDim_scalar_apply, broadcastInDim_scalar_apply,
    broadcastInDim_scalar_apply]
  rfl

/-- The reference's result, at its one index, is the hinge total of the logits, the rows' ground-truth logits and the
    labels as a column. -/
theorem total_apply (x : S16384x2048.Idx → Ideal .f32) (lab : S16384.Idx → BitVec 32) (i : S_.Idx) :
    total (F := Ideal) x lab i = Cert.Hinge.hinge x (truthLogit (F := Ideal) x lab) (labelColumn (F := Ideal) lab) := by
  have h : total (F := Ideal) x lab i
      = constant (F := Ideal) S_ .f32 0x00000000#32 (Shape.Idx.first h_S_) + ∑ j : S16384x2048.Idx, margins (F := Ideal) x lab j := by
    unfold total
    generalize margins (F := Ideal) x lab = y0
    simp only [Host.reduceAdd, Ideal.hostReduceAdd_def]
    exact Ideal.hostReduceAdd_total reducesTo_S16384x2048_S_d0_1 (fun b => b.elim0) y0 _ i
  rw [h]
  show Ideal.ofBits .f32 0x00000000#32 + _ = _
  rw [Ideal.ofBits_zero_f32, zero_add]
  refine (sum_idx2 (n0 := 16384) (n1 := 2048) (margins (F := Ideal) x lab)).trans ?_
  unfold Cert.Hinge.hinge
  refine Finset.sum_congr rfl fun a _ => ?_
  rw [Cert.Hinge.rowTotal_eq]
  exact Finset.sum_congr rfl fun b _ => margins_apply x lab a b

end Cert.ReferenceIdeal.HingeRun

end
-- ==== Proof.lean ====
/-
  The certificate of a multiclass hinge loss: for 16384 rows of 2048 logits and one label per row, the sum over every
  row i and every column c other than the row's label of max (x i c − x i label_i + 1) 0.

  The kernel gathers each row's ground-truth logit on the host, then walks 32 blocks of 512 rows: in each block it forms
  the masked margins, sums each row over its columns, sums the 512 row sums, and adds that block total to a one-entry
  running total that starts from zero at the first block and is written back after the last; the host reshapes the one
  entry to a scalar. The reference gathers the same ground-truth logits by the same row gather and sums all
  16384 · 2048 masked margins in one sweep.

  Over the extended reals the two results are one number. Entry by entry the two programs form the same contribution
  from the same three values — the entry's logit, its row's ground-truth logit (the same gather of the same
  arguments, fill value included), its row's label word compared with the column number. The kernel's result is the
  32 block totals added up, each block total the sum of its 512 rows' totals; the reference's is zero plus the sum over
  all index pairs, which is the sum over the 16384 rows of the rows' totals. The 16384 rows are 32 runs of 512 consecutive
  ones, and addition of extended reals is associative and commutative — also at the infinities and at whatever the
  fill value reads as —, so no finiteness of the inputs is used.

  The three frames: the two kernel programs' are the generated frame certificates; the reference's is its run with the
  result dropped. The ideal pass rewrote nothing, so the preservation claim is trivial.
-/
import proofs.«106752_j55851754717414_1_alg».proof.Defs
import proofs.«106752_j55851754717414_1_alg».proof.Proof.Gen.Kernel
import proofs.«106752_j55851754717414_1_alg».proof.Proof.Gen.Kernel.Frame
import proofs.«106752_j55851754717414_1_alg».proof.Proof.Gen.KernelIdeal
import proofs.«106752_j55851754717414_1_alg».proof.Proof.Gen.KernelIdeal.Frame
import proofs.«106752_j55851754717414_1_alg».proof.Proof.Gen.ReferenceIdeal
import proofs.«106752_j55851754717414_1_alg».proof.Proof.Gen.Pre_finite_inputs
import proofs.«106752_j55851754717414_1_alg».proof.Proof.KernelTotal
import proofs.«106752_j55851754717414_1_alg».proof.Proof.RefTotal
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's run, with the result dropped. -/
theorem frame_reference : Cert.frame_ReferenceIdeal := fun m ρ _ =>
  (θ_run Cert.ReferenceIdeal.defs _ _).mono (fun _ h c => (h c).2) (Cert.ReferenceIdeal.HingeRun.run (F := Ideal) m ρ)

/-- The ideal pass rewrote no operation. -/
theorem preserves : Cert.preserves_Kernel_KernelIdeal := trivial

/-- Both programs end at the hinge total of the same logits, the same gathered ground-truth column and the same label
    column: the kernel's as 32 block totals accumulated, the reference's as one sum over all entries. -/
theorem algebraic : Cert.algebraic_KernelIdeal_ReferenceIdeal := by
  intro m ρ m' ρ' _ hagree
  refine ⟨fun c _ => Cert.Hinge.hinge (Cert.KernelIdeal.Hinge.foundLogits m c) (Cert.KernelIdeal.Hinge.foundTruth m c)
    (Cert.KernelIdeal.Hinge.foundLabels m c), Cert.KernelIdeal.Hinge.run m ρ, ?_⟩
  refine (θ_run Cert.ReferenceIdeal.defs _ _).mono (fun _ h c => ⟨(h c).1.trans ?_, (h c).2⟩)
    (Cert.ReferenceIdeal.HingeRun.run (F := Ideal) m' ρ')
  funext i
  show _ = Cert.Hinge.hinge (Cert.KernelIdeal.Hinge.foundLogits m c) (Cert.KernelIdeal.Hinge.foundTruth m c)
    (Cert.KernelIdeal.Hinge.foundLabels m c)
  rw [Cert.ReferenceIdeal.HingeRun.total_apply, (hagree c).1, (hagree c).2, Cert.KernelIdeal.Hinge.foundLogits_eq,
    Cert.KernelIdeal.Hinge.foundTruth_eq, Cert.KernelIdeal.Hinge.foundLabels_eq]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
